-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S64x256 : Shape := ⟨2, ![64, 256]⟩
abbrev S64 : Shape := ⟨1, ![64]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x256 .f32) (main_arg1 : FVec F S64x256 .f32) (main_arg2 : FVec F S64 .f32) (main_arg3 : IVec S800000 32) (main_arg4 : IVec S800000 32) (main_arg5 : FVec F S800000 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S800000 .f32 := Host.absf main_arg5
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x256 : Shape := ⟨2, ![50000, 256]⟩
abbrev S64x256 : Shape := ⟨2, ![64, 256]⟩
abbrev S64 : Shape := ⟨1, ![64]⟩
abbrev S800000 : Shape := ⟨1, ![800000]⟩
abbrev S1x64 : Shape := ⟨2, ![1, 64]⟩
abbrev S50000x64 : Shape := ⟨2, ![50000, 64]⟩
abbrev S2000x256 : Shape := ⟨2, ![2000, 256]⟩
abbrev S2000x64 : Shape := ⟨2, ![2000, 64]⟩
abbrev S800000x1 : Shape := ⟨2, ![800000, 1]⟩
abbrev S_ : Shape := ⟨0, ![]⟩
abbrev S800000x64 : Shape := ⟨2, ![800000, 64]⟩
abbrev S10000x64 : Shape := ⟨2, ![10000, 64]⟩

abbrev nBuf : Space → Nat
  | .hbm => 25
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S64x256, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S1x64, .f32⟩
  | .hbm, ⟨7, _⟩ => ⟨S50000x64, .f32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S800000x64, .f32⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S64x256, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S64_S1x64 : S64.ShapeCasts S1x64
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  dot_S2000x256_S64x256_S2000x64_1_1_0_0_n_n_wf : DotDims.WF S2000x256 S64x256 S2000x64 [1] [1] [0] [0] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)

variable [Facts₀]

def dot_S2000x256_S64x256_S2000x64_1_1_0_0_n_n : DotDims S2000x256 S64x256 S2000x64 where
  lhsContracting := [1]
  rhsContracting := [1]
  lhsNonContracting := [0]
  rhsNonContracting := [0]
  lhsBatch := []
  rhsBatch := []
  wf := dot_S2000x256_S64x256_S2000x64_1_1_0_0_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S50000x256 : Shape := ⟨2, ![50000, 256]⟩
abbrev S64x256 : Shape := ⟨2, ![64, 256]⟩
abbrev S64 : Shape := ⟨1, ![64]⟩
abbrev S800000 : Shape := ⟨1, ![800000]⟩
abbrev S50000x64 : Shape := ⟨2, ![50000, 64]⟩
abbrev S1x64 : Shape := ⟨2, ![1, 64]⟩
abbrev S800000x1 : Shape := ⟨2, ![800000, 1]⟩
abbrev S_ : Shape := ⟨0, ![]⟩
abbrev S800000x64 : Shape := ⟨2, ![800000, 64]⟩

abbrev nBuf : Space → Nat
  | .hbm => 33
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S64x256, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S50000x64, .f32⟩
  | .hbm, ⟨7, _⟩ => ⟨S1x64, .f32⟩
  | .hbm, ⟨8, _⟩ => ⟨S50000x64, .f32⟩
  | .hbm, ⟨9, _⟩ => ⟨S50000x64, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .i1⟩
  | .hbm, ⟨29, _⟩ => ⟨S_, .f32⟩
  | .hbm, ⟨30, _⟩ => ⟨S50000x64, .f32⟩
  | .hbm, ⟨31, _⟩ => ⟨S50000x64, .f32⟩
  | .hbm, ⟨32, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S50000x256_S64x256_S50000x64_1_1_0_0_n_n_wf : DotDims.WF S50000x256 S64x256 S50000x64 [1] [1] [0] [0] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x256_S64x256_S50000x64_1_1_0_0_n_n : DotDims S50000x256 S64x256 S50000x64 where
  lhsContracting := [1]
  rhsContracting := [1]
  lhsNonContracting := [0]
  rhsNonContracting := [0]
  lhsBatch := []
  rhsBatch := []
  wf := dot_S50000x256_S64x256_S50000x64_1_1_0_0_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run with its RESULT named.

  @main of the kernel is four segments: one host line (the bias reshaped to a row), the linear region (25 points,
  one block of 2000 rows each), sixteen host lines (the edge gather, the scaling by the edge values, the scatter-add
  into a zero array), and the leaky-relu region (5 points, 10000 rows each). The buffer contents at the four
  boundaries are the fold `W1 … W4`: a host stretch applies its operations, a region replaces its windows' arrays by
  what its write-backs leave and keeps every other buffer. After the last segment every unscoped buffer holds `W4`;
  the frame reads the six arguments there, and here the result buffer `main_v15` is read there as well, so that the
  run's post NAMES the result: `W4` at `main_v15`.
-/
import proofs.«174360_j20547123544254_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel's @main terminates without a fault; the result buffer ends at the last
    boundary's contents `W4` and the six argument arrays end as launched. -/
theorem run : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Named

end
-- ==== Proof.Linear.lean ====
/-
  The linear region: its output array as ONE function of the arrays it reads.

  The region has 25 grid points; point `t` fetches rows 2000·t … 2000·t + 1999 of the 50000 × 256 array `x`, the
  whole 64 × 256 array `W` and the whole 1 × 64 bias row, and writes back the 2000 × 64 block whose entry (r, o) is
  the product of the block's row r with row o of `W`, accumulated into zero, plus the bias entry o. Over the
  extended reals the two changes of float format are the identity and the matrix unit's product into a zero
  accumulator is the plain sum over the 256 contracted entries, so entry (r, o) of the output ARRAY is
      ∑ k, x (r, k) · W (o, k)  +  bias (0, o),
  the same expression at every point: the 25 blocks are the blocks of one whole-array function, and they tile the
  array.
-/
import proofs.«174360_j20547123544254_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen
open Idealize.ShloMosaic Idealize.ShloMosaic.TcCoe Idealize.SL.Sem
open Idealize.ShloMosaic.Pipeline (Dat)

/-! ## The indices the sum reads -/

/-- Entry (row of `i`, k) of `x`. -/
abbrev xAt (i : S50000x64.Idx) (k : Fin 256) : S50000x256.Idx := fun a => match a with
  | ⟨0, _⟩ => ⟨(i 0).val, (i 0).isLt⟩
  | ⟨1, _⟩ => ⟨k.val, k.isLt⟩
/-- Entry (column of `i`, k) of `W`. -/
abbrev wAt (i : S50000x64.Idx) (k : Fin 256) : S64x256.Idx := fun a => match a with
  | ⟨0, _⟩ => ⟨(i 1).val, (i 1).isLt⟩
  | ⟨1, _⟩ => ⟨k.val, k.isLt⟩
/-- Entry (0, column of `i`) of the bias row. -/
abbrev bAt (i : S50000x64.Idx) : S1x64.Idx := fun a => match a with
  | ⟨0, _⟩ => ⟨0, Nat.one_pos⟩
  | ⟨1, _⟩ => ⟨(i 1).val, (i 1).isLt⟩

/-- The affine map `x · Wᵀ + bias`, entry by entry, over the extended reals. -/
def affine (x : S50000x256.Idx → EReal) (W : S64x256.Idx → EReal) (b : S1x64.Idx → EReal) : S50000x64.Idx → EReal :=
  fun i => (∑ k : Fin 256, x (xAt i k) * W (wAt i k)) + b (bAt i)

/-- The affine map at `i`, from any spelling of the indices it reads. -/
theorem affine_of_indices (x : S50000x256.Idx → EReal) (W : S64x256.Idx → EReal) (b : S1x64.Idx → EReal)
    (ex : Fin 256 → S50000x256.Idx) (ew : Fin 256 → S64x256.Idx) (eb : S1x64.Idx) (i : S50000x64.Idx)
    (hx : ∀ k, ex k = xAt i k) (hw : ∀ k, ew k = wAt i k) (hb : eb = bAt i) :
    (∑ k : Fin 256, x (ex k) * W (ew k)) + b eb = affine x W b i := by
  unfold affine
  rw [hb]
  exact congrArg (· + _) (Finset.sum_congr rfl fun k _ => by rw [hx k, hw k])

/-! ## The body's stored value at an entry of the block -/

/-- The same three indices inside one block. -/
abbrev xIn (j : S2000x64.Idx) (k : Fin 256) : S2000x256.Idx := fun a => match a with
  | ⟨0, _⟩ => ⟨(j 0).val, (j 0).isLt⟩
  | ⟨1, _⟩ => ⟨k.val, k.isLt⟩
abbrev wIn (j : S2000x64.Idx) (k : Fin 256) : S64x256.Idx := fun a => match a with
  | ⟨0, _⟩ => ⟨(j 1).val, (j 1).isLt⟩
  | ⟨1, _⟩ => ⟨k.val, k.isLt⟩
abbrev bIn (j : S2000x64.Idx) : S1x64.Idx := fun a => match a with
  | ⟨0, _⟩ => ⟨0, Nat.one_pos⟩
  | ⟨1, _⟩ => ⟨(j 1).val, (j 1).isLt⟩

theorem lhs0 (j : S2000x64.Idx) (q : dot_S2000x256_S64x256_S2000x64_1_1_0_0_n_n.contr.Idx) : (dot_S2000x256_S64x256_S2000x64_1_1_0_0_n_n.lhsIdx j q 0).val = (j 0).val := by
  unfold DotDims.lhsIdx
  rw [dif_neg (show ¬(0 : Fin S2000x256.rank) ∈ dot_S2000x256_S64x256_S2000x64_1_1_0_0_n_n.lhsBatch by decide), dif_pos (show (0 : Fin S2000x256.rank) ∈ dot_S2000x256_S64x256_S2000x64_1_1_0_0_n_n.lhsNonContracting by decide)]
  rfl
theorem lhs1 (j : S2000x64.Idx) (q : dot_S2000x256_S64x256_S2000x64_1_1_0_0_n_n.contr.Idx) : (dot_S2000x256_S64x256_S2000x64_1_1_0_0_n_n.lhsIdx j q 1).val = (q ⟨0, by decide⟩).val :=
  dot_S2000x256_S64x256_S2000x64_1_1_0_0_n_n.lhsIdx_val_of_single rfl j q
theorem rhs0 (j : S2000x64.Idx) (q : dot_S2000x256_S64x256_S2000x64_1_1_0_0_n_n.contr.Idx) : (dot_S2000x256_S64x256_S2000x64_1_1_0_0_n_n.rhsIdx j q 0).val = (j 1).val := by
  unfold DotDims.rhsIdx
  rw [dif_neg (show ¬(0 : Fin S64x256.rank) ∈ dot_S2000x256_S64x256_S2000x64_1_1_0_0_n_n.rhsBatch by decide), dif_pos (show (0 : Fin S64x256.rank) ∈ dot_S2000x256_S64x256_S2000x64_1_1_0_0_n_n.rhsNonContracting by decide)]
  rfl
theorem rhs1 (j : S2000x64.Idx) (q : dot_S2000x256_S64x256_S2000x64_1_1_0_0_n_n.contr.Idx) : (dot_S2000x256_S64x256_S2000x64_1_1_0_0_n_n.rhsIdx j q 1).val = (q ⟨0, by decide⟩).val :=
  dot_S2000x256_S64x256_S2000x64_1_1_0_0_n_n.rhsIdx_val_of_single rfl j q

/-- The matrix unit's product of two blocks into a zero accumulator, at entry `j`: the sum over the contracted axis. -/
theorem product_apply (l : FVec Ideal S2000x256 .bf16) (r : FVec Ideal S64x256 .bf16) (j : S2000x64.Idx) :
    matmul dot_S2000x256_S64x256_S2000x64_1_1_0_0_n_n none l r (constant (F := Ideal) S2000x64 .f32 0x00000000#32) j = ∑ k : Fin 256, l (xIn j k) * r (wIn j k) := by
  simp only [matmul]
  rw [Ideal.matmul_constant_zero_apply, ← Equiv.sum_comp (ValueIdx.contrEquiv1 dot_S2000x256_S64x256_S2000x64_1_1_0_0_n_n 256 rfl rfl).symm]
  refine Finset.sum_congr rfl fun k _ => ?_
  have hk := ValueIdx.contrEquiv1_symm_val dot_S2000x256_S64x256_S2000x64_1_1_0_0_n_n 256 rfl rfl k
  have el : dot_S2000x256_S64x256_S2000x64_1_1_0_0_n_n.lhsIdx j ((ValueIdx.contrEquiv1 dot_S2000x256_S64x256_S2000x64_1_1_0_0_n_n 256 rfl rfl).symm k) = xIn j k := funext fun a => Fin.ext (by
    match a with
    | ⟨0, _⟩ => exact lhs0 _ _
    | ⟨1, _⟩ => exact (lhs1 _ _).trans hk)
  have er : dot_S2000x256_S64x256_S2000x64_1_1_0_0_n_n.rhsIdx j ((ValueIdx.contrEquiv1 dot_S2000x256_S64x256_S2000x64_1_1_0_0_n_n 256 rfl rfl).symm k) = wIn j k := funext fun a => Fin.ext (by
    match a with
    | ⟨0, _⟩ => exact rhs0 _ _
    | ⟨1, _⟩ => exact (rhs1 _ _).trans hk)
  rw [el, er]

/-- The bias row spread over the block's 2000 rows, at entry `j`: the row's entry in `j`'s column. -/
theorem bias_apply (b : FVec Ideal S1x64 .f32) (j : S2000x64.Idx) :
    broadcastTo S2000x64 b broadcasts_S1x64_S2000x64 j = b (bIn j) :=
  broadcastTo_apply b broadcasts_S1x64_S2000x64 j (bIn j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-- The body's stored value at entry `j` of the block, from the three loaded blocks. -/
theorem pay_apply (x0 : Vec Ideal S2000x256 .f32) (x1 : Vec Ideal S64x256 .f32) (x2 : Vec Ideal S1x64 .f32) (j : S2000x64.Idx) :
    k0_pay1 x0 x1 x2 j = (∑ k : Fin 256, x0 (xIn j k) * x1 (wIn j k)) + x2 (bIn j) := by
  unfold k0_pay1
  simp only [shapeCast_self]
  show matmul dot_S2000x256_S64x256_S2000x64_1_1_0_0_n_n none (truncf .bf16 x0 bitsLt_bf16_f32) (truncf .bf16 x1 bitsLt_bf16_f32) (constant (F := Ideal) S2000x64 .f32 0x00000000#32) j
      + broadcastTo S2000x64 x2 broadcasts_S1x64_S2000x64 j = _
  rw [product_apply, bias_apply]
  rfl

/-! ## From blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 points: the block of `x` has the output block's row index and column index 0;
    the blocks of `W` and of the bias row are at (0, 0); the output's row-block index is at most 24, its column-block
    index 0. -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 24 ∧ win0_3.index t (1 : Fin 2) = 0 :=
  (by decide +kernel : ∀ t : Fin grid0.N, _)

/-- Each of the 25 row blocks is some point's output block. -/
theorem every_block : ∀ q : Fin 25, ∃ t : Fin cfg0.N, win0_3.index t = ![q.val, 0] :=
  (by decide +kernel : ∀ q : Fin 25, ∃ t : Fin grid0.N, win0_3.index t = ![q.val, 0])

/-- What point `t` writes back is block `t` of the affine map of the three arrays as the region finds them. -/
theorem flushed_eq (c : Dev nD) (t : Fin cfg0.N) :
    (dat0 V c).flushed 3 t = ((cfg0.win 3).blk t).view.read (Elt Ideal) (affine (V c main_arg0) (V c main_arg1) (V c main_v0)) := by
  show (cfg0.win 3).cut (grid0.coords t) ((dat0 V c).after 3 t) = _
  rw [after0_3]
  unfold out0_3
  rw [View.canon_unit_zero origin]
  simp only [View.ld_unit_zero (S := S2000x256) origin, View.ld_unit_zero (S := S64x256) origin, View.ld_unit_zero (S := S1x64) origin]
  obtain ⟨e0, e1, e2, e3, e4, e5, -, e7⟩ := block_indices t
  funext j
  show k0_pay1 (iblk0 V c 0 t) (iblk0 V c 1 t) (iblk0 V c 2 t) j = affine (V c main_arg0) (V c main_arg1) (V c main_v0) (((cfg0.win 3).blk t).view.emb j)
  rw [pay_apply]
  have hx : ∀ k : Fin 256, ((cfg0.win 0).blk t).view.emb (xIn j k) = xAt (((cfg0.win 3).blk t).view.emb j) k := fun k => by
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 256 + 1 * k.val = k.val; omega
  have hw : ∀ k : Fin 256, ((cfg0.win 1).blk t).view.emb (wIn j k) = wAt (((cfg0.win 3).blk t).view.emb j) k := fun k => by
    funext a; apply Fin.ext
    match a with
    | ⟨0, _⟩ => show win0_1.index t (0 : Fin 2) * 64 + 1 * (j 1).val = win0_3.index t (1 : Fin 2) * 64 + 1 * (j 1).val; omega
    | ⟨1, _⟩ => show win0_1.index t (1 : Fin 2) * 256 + 1 * k.val = k.val; omega
  have hb : ((cfg0.win 2).blk t).view.emb (bIn j) = bAt (((cfg0.win 3).blk t).view.emb j) := by
    funext a; apply Fin.ext
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega
  exact affine_of_indices (V c main_arg0) (V c main_arg1) (V c main_v0)
    (fun k => ((cfg0.win 0).blk t).view.emb (xIn j k)) (fun k => ((cfg0.win 1).blk t).view.emb (wIn j k))
    (((cfg0.win 2).blk t).view.emb (bIn j)) (((cfg0.win 3).blk t).view.emb j) hx hw hb

/-- An index of the output array is in point `t`'s block iff each coordinate is in the block's range on its axis. -/
theorem mem_blk (t : Fin cfg0.N) (i : S50000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v1).slice (win0_3.rect t)).set ↔ _
  rw [View.set_slice_whole, Rect.mem_set_unit]
  exact Iff.rfl

/-- Every index of the output array is in the block of the point whose row block is `row / 2000`. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := every_block ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 64 ≤ (i 1).val ∧ (i 1).val < win0_3.index t (1 : Fin 2) * 64 + 64; omega

/-- The output array after the region: the affine map of `x`, `W` and the bias row as the region found them. -/
theorem final (c : Dev nD) : (dat0 V c).arrAt 3 cfg0.N = affine (V c main_arg0) (V c main_arg1) (V c main_v0) :=
  (dat0 V c).arrAt_eq_of_cover 3 (affine (V c main_arg0) (V c main_arg1) (V c main_v0)) (fun t _ => flushed_eq V c t) (cover)

end Cert.KernelIdeal.Linear

end
-- ==== Proof.Leaky.lean ====
/-
  The leaky-relu region: its output array as ONE function of its input array.

  The region has five grid points; point `t` fetches rows 10000·t … 10000·t + 9999 of the 50000 × 64 input, the body
  maps every entry `a` of the block to `a` when `a ≥ 0` and to `0.2 · a` otherwise (0.2 being the f32 word
  0x3E4CCCCD), and the block is written back to the same rows of the output. The input and the output windows move
  together and the five blocks tile the array, so the output array after the region is the entrywise map of the
  input array as the region found it — whatever that array is.
-/
import proofs.«174360_j20547123544254_1_alg».proof.Proof.Gen.KernelIdeal.Frame
import Idealize.ShloMosaic.Lib.Pipeline.Value
import Idealize.ShloMosaic.Lib.ValueIdx

set_option maxRecDepth 16384

noncomputable section

namespace Cert.KernelIdeal.Leaky

open Cert.KernelIdeal Cert.KernelIdeal.Gen
open Idealize.ShloMosaic Idealize.ShloMosaic.TcCoe Idealize.SL.Sem
open Idealize.ShloMosaic.Pipeline (Dat)

variable {F : FTy → Type} [FloatOps F]

/-- One entry through the leaky relu: `a` itself when `a ≥ 0`, else `0.2 · a`. -/
def leaky1 (a : F .f32) : F .f32 :=
  Scalar.select (FloatOps.cmpf .oge a (Scalar.ofBits .f32 0x00000000#32)) a (FloatOps.mulf (Scalar.ofBits .f32 0x3E4CCCCD#32) a)

/-- The whole array through the leaky relu, entry by entry. -/
def leaky (a : S50000x64.Idx → Elt F .f32) : S50000x64.Idx → Elt F .f32 := fun i => leaky1 (a i)

/-- The body's stored value at an entry of the block is the leaky relu of the loaded entry (the shape cast of a
    block to its own shape is the identity; the two constants are splats). -/
theorem pay_apply (x0 : Vec F S10000x64 .f32) (j : S10000x64.Idx) : k1_pay1 x0 j = leaky1 (x0 j) := by
  unfold k1_pay1
  simp only [shapeCast_self]
  rfl

variable (V : (c : Dev nD) → (b : Ref sig .tc) → Buf (Elt F) ((c : Thread nD τ).loc b))

theorem origin : (![0, 0] : Fin 2 → Nat) = fun _ => 0 := funext fun a => by fin_cases a <;> rfl

/-- The printed index maps over the five points: the input block and the output block have the same indices, the
    row-block index is at most 4 and the column-block index is 0. -/
theorem same_blocks : ∀ t : Fin cfg1.N, win1_0.index t (0 : Fin 2) = win1_1.index t (0 : Fin 2)
    ∧ win1_0.index t (1 : Fin 2) = win1_1.index t (1 : Fin 2)
    ∧ win1_1.index t (0 : Fin 2) ≤ 4 ∧ win1_1.index t (1 : Fin 2) = 0 :=
  (by decide +kernel : ∀ t : Fin grid1.N, _)

/-- Each of the five row blocks is some point's output block. -/
theorem every_block : ∀ q : Fin 5, ∃ t : Fin cfg1.N, win1_1.index t = ![q.val, 0] :=
  (by decide +kernel : ∀ q : Fin 5, ∃ t : Fin grid1.N, win1_1.index t = ![q.val, 0])

/-- What point `t` writes back is block `t` of the leaky relu of the input array. -/
theorem flushed_eq (c : Dev nD) (t : Fin cfg1.N) :
    (dat1 V c).flushed 1 t = ((cfg1.win 1).blk t).view.read (Elt F) (leaky (V c main_v14)) := by
  show (cfg1.win 1).cut (grid1.coords t) ((dat1 V c).after 1 t) = _
  rw [after1_1]
  unfold out1_1
  rw [View.canon_unit_zero origin]
  simp only [View.ld_unit_zero (S := S10000x64) origin]
  obtain ⟨e0, e1, -, -⟩ := same_blocks t
  funext j
  show k1_pay1 (iblk1 V c 0 t) j = leaky (V c main_v14) (((cfg1.win 1).blk t).view.emb j)
  rw [pay_apply]
  show leaky1 (V c main_v14 (((cfg1.win 0).blk t).view.emb j)) = leaky1 (V c main_v14 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 10000 + 1 * (j 0).val = win1_1.index t (0 : Fin 2) * 10000 + 1 * (j 0).val; omega
    | ⟨1, _⟩ => show win1_0.index t (1 : Fin 2) * 64 + 1 * (j 1).val = win1_1.index t (1 : Fin 2) * 64 + 1 * (j 1).val; omega
  rw [h0]

/-- An index of the output array is in point `t`'s block iff each coordinate is in the block's range on its axis. -/
theorem mem_blk (t : Fin cfg1.N) (i : S50000x64.Idx) :
    i ∈ ((cfg1.win 1).blk t).view.set ↔ ∀ a : Fin 2, win1_1.index t a * S10000x64.size a ≤ (i a).val ∧ (i a).val < win1_1.index t a * S10000x64.size a + S10000x64.size a := by
  show i ∈ ((View.whole main_v15).slice (win1_1.rect t)).set ↔ _
  rw [View.set_slice_whole, Rect.mem_set_unit]
  exact Iff.rfl

/-- Every index of the output array is in the block of the point whose row block is `row / 10000`. -/
theorem cover (i : S50000x64.Idx) : ∃ t : Fin cfg1.N, (cfg1.win 1).flush t = true ∧ i ∈ ((cfg1.win 1).blk t).view.set := by
  have hi0 : (i 0).val < 50000 := (i 0).isLt
  have hi1 : (i 1).val < 64 := (i 1).isLt
  obtain ⟨t, ht⟩ := every_block ⟨(i 0).val / 10000, by omega⟩
  have q0 : win1_1.index t (0 : Fin 2) = (i 0).val / 10000 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 10000 ≤ (i 0).val ∧ (i 0).val < win1_1.index t (0 : Fin 2) * 10000 + 10000; omega
  | ⟨1, _⟩ => show win1_1.index t (1 : Fin 2) * 64 ≤ (i 1).val ∧ (i 1).val < win1_1.index t (1 : Fin 2) * 64 + 64; omega

/-- The output array after the region: the leaky relu of the input array as the region found it. -/
theorem final (c : Dev nD) : (dat1 V c).arrAt 1 cfg1.N = leaky (V c main_v14) :=
  (dat1 V c).arrAt_eq_of_cover 1 (leaky (V c main_v14)) (fun t _ => flushed_eq V c t) (cover)

end Cert.KernelIdeal.Leaky

end
-- ==== Proof.Host.lean ====
/-
  The kernel's result as ONE expression of its six arguments.

  Between the two regions @main runs sixteen host lines: the source indices are wrapped (a negative index has 50000
  added), row `src e` of the linear region's output is gathered for every edge `e`, each gathered row is scaled by the
  edge's value, and the scaled rows are scatter-added into a zero 50000 × 64 array at the rows `dst e`. Called
  `edges` below, this stage is one fixed expression of the array it gathers from and of the three edge arrays.
  Before the first region one host line reshapes the 64 bias entries into a 1 × 64 row.

  Reading the boundary contents back from the result buffer: the result is the leaky relu (the second region) of
  `edges` (the host lines) of the affine map `x · Wᵀ + bias` (the first region), the argument buffers being untouched
  by every segment before the one that reads them.
-/
import proofs.«174360_j20547123544254_1_alg».proof.Proof.Linear
import proofs.«174360_j20547123544254_1_alg».proof.Proof.Leaky
import Idealize.ShloMosaic.Lib.StableHlo.Run
import Idealize.ShloMosaic.PureOps.Ideal

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

/-- The edge stage: wrap the source indices, gather the rows of `sup`, scale each by its edge's value, scatter-add
    into zero at the destination rows. -/
def edges (sup : (⟨S50000x64, .f32⟩ : BufTy).Contents (Elt Ideal)) (src dst : (⟨S800000, .i32⟩ : BufTy).Contents (Elt Ideal))
    (val : (⟨S800000, .f32⟩ : BufTy).Contents (Elt Ideal)) : (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (broadcastInDim S800000x64 ![0, 1] bcast_S800000x1_S800000x64_0_1 (broadcastInDim S800000x1 ![0] bcast_S800000_S800000x1_0 val))
      (Host.gather gather_S50000x64_S800000x1_S800000x64_1_0_n_n_0_1_164 sup
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

/-- The bias as the 1 × 64 row the first region reads. -/
def biasRow (b : (⟨S64, .f32⟩ : BufTy).Contents (Elt Ideal)) : (⟨S1x64, .f32⟩ : BufTy).Contents (Elt Ideal) :=
  shapeCast S1x64 b shapeCasts_S64_S1x64

/-- The whole kernel as a function of its arguments. -/
def result (x : (⟨S50000x256, .f32⟩ : BufTy).Contents (Elt Ideal)) (W : (⟨S64x256, .f32⟩ : BufTy).Contents (Elt Ideal))
    (b : (⟨S64, .f32⟩ : BufTy).Contents (Elt Ideal)) (src dst : (⟨S800000, .i32⟩ : BufTy).Contents (Elt Ideal))
    (val : (⟨S800000, .f32⟩ : BufTy).Contents (Elt Ideal)) : (⟨S50000x64, .f32⟩ : BufTy).Contents (Elt Ideal) :=
  Leaky.leaky (F := Ideal) (edges (Linear.affine x W (biasRow b)) src dst val)

variable (m : (ℓ : Loc nD τ sig) → Buf (Elt Ideal) ℓ) (ρ : Dev nD → PrngReg)

/-! ## The first region's entry contents -/

theorem entry_x (c : Dev nD) : V1 m ρ c main_arg0 = m ((c : Thread nD τ).loc main_arg0) := by
  show StableHlo.after hostOps0 (W0 m ρ c) (Proc.devRef .tc main_arg0) = _
  after_results
theorem entry_w (c : Dev nD) : V1 m ρ c main_arg1 = m ((c : Thread nD τ).loc main_arg1) := by
  show StableHlo.after hostOps0 (W0 m ρ c) (Proc.devRef .tc main_arg1) = _
  after_results
theorem entry_bias (c : Dev nD) : V1 m ρ c main_v0 = biasRow (m ((c : Thread nD τ).loc main_arg2)) := by
  show StableHlo.after hostOps0 (W0 m ρ c) (Proc.devRef .tc main_v0) = _
  after_results
  rfl

/-- The first region's output array after the region. -/
theorem support (c : Dev nD) : W2 m ρ c (Proc.devRef .tc main_v1)
    = Linear.affine (m ((c : Thread nD τ).loc main_arg0)) (m ((c : Thread nD τ).loc main_arg1)) (biasRow (m ((c : Thread nD τ).loc main_arg2))) :=
  (W2_arr m ρ c 3).trans ((Linear.final (V1 m ρ) c).trans (by rw [entry_x, entry_w, entry_bias]))

/-! ## The edge arrays between the regions: neither the first host line nor the first region writes them -/

theorem mid_src (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem mid_dst (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem mid_val (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

/-! ## The second region's input array, and the result -/

/-- The sixteen host lines leave the edge stage of the first region's output in the second region's input array. -/
theorem aggregated (c : Dev nD) : V3 m ρ c main_v14
    = edges (W2 m ρ c (Proc.devRef .tc main_v1)) (W2 m ρ c (Proc.devRef .tc main_arg3)) (W2 m ρ c (Proc.devRef .tc main_arg4)) (W2 m ρ c (Proc.devRef .tc main_arg5)) := by
  show StableHlo.after hostOps1 (W2 m ρ c) (Proc.devRef .tc main_v14) = _
  after_results
  rfl

/-- The result buffer at the last boundary is `result` of the six arguments. -/
theorem result_eq (c : Dev nD) : W4 m ρ c (Proc.devRef .tc main_v15)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W4_arr m ρ c 1).trans ((Leaky.final (V3 m ρ) c).trans (by
    rw [aggregated, support, mid_src, mid_dst, mid_val]
    rfl))

end Cert.KernelIdeal.HostSide

end
-- ==== Proof.Bridge.lean ====
/-
  The reference computes the same function.

  The reference's @main is one line of host operations: the product `x · Wᵀ` as ONE contraction over the 256 shared
  entries, the bias spread over the rows and added, the same edge stage (wrap, gather, scale, scatter-add into zero)
  and the same leaky relu, written as a select between `a` and `0.2 · a` on `a ≥ 0`. Against the kernel:
    * the contraction at entry (r, o) is `∑ k, x (r, k) · W (o, k)`, term for term the kernel's sum over one block
      row — no regrouping is needed, and no finiteness;
    * the bias reaches entry (r, o) as `b o` on both sides, through a reshape to a row on one side and through two
      broadcasts on the other;
    * the edge stage is the same expression of the array it gathers from;
    * the select is the leaky relu entry by entry, with the same two constant words.
-/
import proofs.«174360_j20547123544254_1_alg».proof.Proof.Host
import proofs.«174360_j20547123544254_1_alg».proof.Proof.Gen.ReferenceIdeal.Read

set_option maxRecDepth 16384

noncomputable section

namespace Cert.ReferenceIdeal.SameFunction

open Cert.ReferenceIdeal Cert.ReferenceIdeal.Read
open Idealize.ShloMosaic Idealize.ShloMosaic.TcCoe Idealize.SL.Sem
open Cert.KernelIdeal.Linear (affine affine_of_indices xAt wAt bAt)
open Cert.KernelIdeal.HostSide (edges biasRow result)
open Cert.KernelIdeal.Leaky (leaky leaky1)

variable (x : (⟨S50000x256, .f32⟩ : BufTy).Contents (Elt Ideal)) (W : (⟨S64x256, .f32⟩ : BufTy).Contents (Elt Ideal))
  (b : (⟨S64, .f32⟩ : BufTy).Contents (Elt Ideal)) (src dst : (⟨S800000, .i32⟩ : BufTy).Contents (Elt Ideal))
  (val : (⟨S800000, .f32⟩ : BufTy).Contents (Elt Ideal))

/-- The bias row at (0, o) is the bias at o: the reshape keeps the row-major position. -/
theorem biasRow_apply (i : S50000x64.Idx) : biasRow b (bAt i) = b (idx_main_v1 (idx_main_v2 i)) :=
  shapeCast_apply b _ (bAt i) (idx_main_v1 (idx_main_v2 i)) (by
    rw [Shape.rowMajor_val_one, Shape.rowMajor_val_two]; show (i 1).val = 0 * 64 + (i 1).val; omega)

/-- The reference's `x · Wᵀ + b` is the kernel's affine map of `x`, `W` and the bias row. -/
theorem support_eq : val_main_v3 (F := Ideal) x W b = affine x W (biasRow b) := by
  funext i
  rw [val_main_v3_apply, val_main_v0_apply, val_main_v2_apply, val_main_v1_apply, ← biasRow_apply b i]
  exact affine_of_indices x W (biasRow b) (lidx_main_v0 i) (ridx_main_v0 i) (bAt i) i
    (fun k => funext fun a => Fin.ext (by match a with | ⟨0, _⟩ => rfl | ⟨1, _⟩ => rfl))
    (fun k => funext fun a => Fin.ext (by match a with | ⟨0, _⟩ => rfl | ⟨1, _⟩ => rfl)) rfl

/-- The reference's edge stage is the kernel's, of the reference's `x · Wᵀ + b`. -/
theorem edges_eq : val_main_v16 (F := Ideal) x W b src dst val = edges (val_main_v3 (F := Ideal) x W b) src dst val := rfl

/-- The reference's select is the leaky relu of its edge stage, entry by entry. -/
theorem leaky_eq : val_main_v21 (F := Ideal) x W b src dst val = leaky (F := Ideal) (val_main_v16 (F := Ideal) x W b src dst val) := by
  funext i
  rw [val_main_v21_apply, val_main_v18_apply, val_main_v20_apply, val_main_v17_apply, val_main_cst_1_apply, val_main_v19_apply, val_main_cst_2_apply]
  rfl

/-- The reference's result is the kernel's function of the same six arrays. -/
theorem result_eq : val_main_v21 (F := Ideal) x W b src dst val = result x W b src dst val := by
  rw [leaky_eq, edges_eq, support_eq]
  rfl

end Cert.ReferenceIdeal.SameFunction

end
-- ==== Proof.lean ====
/-
  The kernel is a graph-convolution layer: `support = x · Wᵀ + b` (50000 × 64), for every edge `e` the row
  `support[src e]` scaled by `val e`, the scaled rows summed into row `dst e` of a zero array, and a leaky relu
  (slope 0.2) of the sums. The kernel runs the affine map as a first region over 25 blocks of 2000 rows — each block
  a matrix-unit product of a block of `x` (both operands narrowed to bf16, which over the extended reals is the
  identity) with all of `W` into a zero accumulator, plus the bias row —, the edge stage as host operations, and the
  leaky relu as a second region over 5 blocks of 10000 rows. The reference runs everything as host operations, the
  product as one contraction.

  Over the extended reals both compute, entry (r, o) of the affine map, `∑ k, x (r, k) · W (o, k) + b o` — the same
  256 products in the same order, so that no law of the extended reals beyond reading each operation at an index is
  used and the precondition (finite inputs) is never opened —, then the SAME edge-stage expression of that array, then
  the same select on `a ≥ 0` between `a` and `0.2 · a` with the same constant words. The idealization rewrote no
  operation, so `preserves` is trivial.

  Modules: `KernelRun` (the kernel's run with the result buffer named), `Linear` and `Leaky` (each region's output
  array as one whole-array function of its input arrays), `Host` (the boundary contents read back: the result as one
  function `result` of the six arguments), `Bridge` (the reference's term is `result`).
-/
import proofs.«174360_j20547123544254_1_alg».proof.Defs
import proofs.«174360_j20547123544254_1_alg».proof.Proof.Gen.Kernel
import proofs.«174360_j20547123544254_1_alg».proof.Proof.Gen.Kernel.Skeleton
import proofs.«174360_j20547123544254_1_alg».proof.Proof.Gen.Kernel.Launch
import proofs.«174360_j20547123544254_1_alg».proof.Proof.Gen.Kernel.Points
import proofs.«174360_j20547123544254_1_alg».proof.Proof.Gen.Kernel.Frame
import proofs.«174360_j20547123544254_1_alg».proof.Proof.Gen.KernelIdeal
import proofs.«174360_j20547123544254_1_alg».proof.Proof.Gen.KernelIdeal.Skeleton
import proofs.«174360_j20547123544254_1_alg».proof.Proof.Gen.KernelIdeal.Launch
import proofs.«174360_j20547123544254_1_alg».proof.Proof.Gen.KernelIdeal.Points
import proofs.«174360_j20547123544254_1_alg».proof.Proof.Gen.KernelIdeal.Frame
import proofs.«174360_j20547123544254_1_alg».proof.Proof.Gen.ReferenceIdeal
import proofs.«174360_j20547123544254_1_alg».proof.Proof.Gen.Pre_finite_inputs
import proofs.«174360_j20547123544254_1_alg».proof.Proof.Gen.ReferenceIdeal.Run
import proofs.«174360_j20547123544254_1_alg».proof.Proof.Gen.ReferenceIdeal.Read
import proofs.«174360_j20547123544254_1_alg».proof.Proof.KernelRun
import proofs.«174360_j20547123544254_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is one line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with `result` of the six argument arrays in their result buffer: the kernel by its run read back
    through the two regions and the host lines between them, the reference by its run's term, which is the same function. -/
theorem algebraic : Cert.algebraic_KernelIdeal_ReferenceIdeal := by
  intro m ρ m' ρ' _ hagree
  refine ⟨fun c => Cert.KernelIdeal.HostSide.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.HostSide.result_eq m ρ c), (h c).2⟩)
      (Cert.KernelIdeal.Named.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v21_eq, Cert.ReferenceIdeal.SameFunction.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
